-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100352x128 : Shape := ⟨2, ![100352, 128]⟩
abbrev S100352x1 : Shape := ⟨2, ![100352, 1]⟩
abbrev S2048x128 : Shape := ⟨2, ![2048, 128]⟩
abbrev S2048x1 : Shape := ⟨2, ![2048, 1]⟩
abbrev S2048 : Shape := ⟨1, ![2048]⟩

abbrev nBuf : Space → Nat
  | .hbm => 41
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S100000x1, .f32⟩
  | .hbm, ⟨29, _⟩ => ⟨S1x128, .f32⟩
  | .hbm, ⟨30, _⟩ => ⟨S_, .i32⟩
  | .hbm, ⟨31, _⟩ => ⟨S_, .f32⟩
  | .hbm, ⟨32, _⟩ => ⟨S100352x128, .f32⟩
  | .hbm, ⟨33, _⟩ => ⟨S_, .i32⟩
  | .hbm, ⟨34, _⟩ => ⟨S_, .f32⟩
  | .hbm, ⟨35, _⟩ => ⟨S100352x1, .f32⟩
  | .hbm, ⟨36, _⟩ => ⟨S_, .i32⟩
  | .hbm, ⟨37, _⟩ => ⟨S_, .f32⟩
  | .hbm, ⟨38, _⟩ => ⟨S100352x128, .f32⟩
  | .hbm, ⟨39, _⟩ => ⟨S100352x128, .f32⟩
  | .hbm, ⟨40, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_v20 : Ref sig .tc := ⟨.hbm, 32, rfl⟩
abbrev main_c_4 : Ref sig .tc := ⟨.hbm, 33, rfl⟩
abbrev main_call1_v0 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  pads_S100000x128_S100352x128_03520_000 : S100000x128.Pads (![0, 0] : Fin 2 → Nat) ![352, 0] ![0, 0] S100352x128
  h_S_ : 0 < S_.numel
  pads_S100000x1_S100352x1_03520_000 : S100000x1.Pads (![0, 0] : Fin 2 → Nat) ![352, 0] ![0, 0] S100352x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  slices_S100352x128_S100000x128_0_0 : S100352x128.Slices ![0, 0] S100000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S100352x1.size a
  hwx0_1 : ∀ i : grid0.Coords, EltTy.bits .f32 = 32 ∨ (Rect.block (s := S100352x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S100352x128.size a
  hwx0_6 : ∀ i : grid0.Coords, EltTy.bits .f32 = 32 ∨ (Rect.block (s := S100352x128) S2048x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v20) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One row of the layer, on the extended reals.

  A node's output row depends on one row of each node-indexed array only: the node's summed neighbour
  features a (128 numbers), its neighbour count c, its own features x (128 numbers), and on the two weight
  matrices and the bias. With mean = a / max(c, 1), the linear part is

      lin j = (Σ_k mean_k · W_l[k, j] + Σ_k x_k · W_r[k, j]) + b_j

  and the row is normalised by its Euclidean length, floored at a small positive constant:

      out j = lin j / max(√(Σ_j' lin j' · lin j'), ε).

  Both programs compute exactly this, in this grouping, for every row; nothing here depends on how many rows
  there are or how they are tiled, so the two sums are never re-associated and no finiteness is needed. The
  constants 1 and ε are kept as the float words both programs spell.
-/
import Idealize.ShloMosaic.PureOps.Ideal

noncomputable section

open scoped BigOperators

namespace Cert.Sage

open Idealize.ShloMosaic

/-- The float word of 1.0, the floor under the neighbour count. -/
abbrev one : EReal := Ideal.ofBits .f32 0x3F800000#32
/-- The float word of the length's floor ε (the f32 nearest 1e-12). -/
abbrev eps : EReal := Ideal.ofBits .f32 0x2B8CBCCC#32

/-- The linear part of a row at output feature j: mean-aggregated neighbours through W_l, the node's own
    features through W_r, plus the bias. -/
def rowLin (a : Fin 128 → EReal) (c : EReal) (x : Fin 128 → EReal) (wl wr : Fin 128 → Fin 128 → EReal)
    (b : Fin 128 → EReal) (j : Fin 128) : EReal :=
  ((∑ k : Fin 128, Ideal.div (a k) (max c one) * wl k j) + ∑ k : Fin 128, x k * wr k j) + b j

/-- The row, divided by its length floored at ε. -/
def rowOut (a : Fin 128 → EReal) (c : EReal) (x : Fin 128 → EReal) (wl wr : Fin 128 → Fin 128 → EReal)
    (b : Fin 128 → EReal) (j : Fin 128) : EReal :=
  Ideal.div (rowLin a c x wl wr b j)
    (max (Ideal.sqrt (∑ j' : Fin 128, rowLin a c x wl wr b j' * rowLin a c x wl wr b j')) eps)

end Cert.Sage

end
-- ==== Proof.ArraySpec.lean ====
/-
  The layer on whole arrays, as the row function applied to every node.

  For the arrays of the program (100000 nodes, 128 features) the result at node r and feature j is the row
  function of row r of the neighbour sums, entry r of the neighbour counts (a vector) and row r of the features.
  The kernel works on arrays padded to 100352 = 49 · 2048 rows, with the counts as a column and the bias as a
  one-row matrix; its result on the padded arrays is the same row function of row R of each.
-/
import proofs.«106013_j38010460569664_2_alg».proof.Proof.Spec
import Idealize.ShloMosaic.Lib.ValueIdx

noncomputable section

namespace Cert.Sage

open Idealize.ShloMosaic Idealize.ShloMosaic.ValueIdx

/-- The result array: node (i 0), feature (i 1). -/
def layer (agg : (⟨2, ![100000, 128]⟩ : Shape).Idx → EReal) (cnt : (⟨1, ![100000]⟩ : Shape).Idx → EReal)
    (x : (⟨2, ![100000, 128]⟩ : Shape).Idx → EReal) (wl wr : (⟨2, ![128, 128]⟩ : Shape).Idx → EReal)
    (b : (⟨1, ![128]⟩ : Shape).Idx → EReal) : (⟨2, ![100000, 128]⟩ : Shape).Idx → EReal := fun i =>
  rowOut (fun k => agg (ix2 (i 0) k)) (cnt (ix1 (i 0))) (fun k => x (ix2 (i 0) k)) (fun k j => wl (ix2 k j))
    (fun k j => wr (ix2 k j)) (fun j => b (ix1 j)) (i 1)

/-- The same on the padded arrays the kernel is launched on: the counts a column, the bias a one-row matrix. -/
def layerPadded (agg : (⟨2, ![100352, 128]⟩ : Shape).Idx → EReal) (cnt : (⟨2, ![100352, 1]⟩ : Shape).Idx → EReal)
    (x : (⟨2, ![100352, 128]⟩ : Shape).Idx → EReal) (wl wr : (⟨2, ![128, 128]⟩ : Shape).Idx → EReal)
    (b : (⟨2, ![1, 128]⟩ : Shape).Idx → EReal) : (⟨2, ![100352, 128]⟩ : Shape).Idx → EReal := fun i =>
  rowOut (fun k => agg (ix2 (i 0) k)) (cnt (ix2 (i 0) (0 : Fin 1))) (fun k => x (ix2 (i 0) k)) (fun k j => wl (ix2 k j))
    (fun k j => wr (ix2 k j)) (fun j => b (ix2 (0 : Fin 1) j)) (i 1)

end Cert.Sage

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.BlockValue.lean ====
/-
  What the kernel body computes on one block of 2048 nodes, entry by entry.

  The body loads a block of neighbour sums (2048 × 128), the matching column of neighbour counts (2048 × 1), the
  matching block of node features, the two weight matrices and the bias row (1 × 128). It divides the sums by
  max(count, 1) spread along each row, multiplies by W_l, adds features · W_r and the bias row spread down the
  rows, squares, sums each row, takes the root, floors it at ε, spreads the result along the row and divides.
  Each of these steps reads, at entry (p, q), only row p of the node-indexed blocks; so the stored value at
  (p, q) is the specification's row function of row p of the three blocks.

  The body's text is split into three named stages (the mean, the linear part, the normalised row); the printed
  payload is their composition by definitional unfolding.
-/
import proofs.«106013_j38010460569664_2_alg».proof.Proof.Gen.KernelIdeal.Skeleton
import proofs.«106013_j38010460569664_2_alg».proof.Proof.ArraySpec
import proofs.«106013_j38010460569664_2_alg».proof.Proof.LibColumn
import proofs.«106013_j38010460569664_2_alg».proof.Proof.LibPlainMatmul
import Idealize.ShloMosaic.Lib.ValueLayout
import Idealize.ShloMosaic.PureOps.Ideal.Laws

noncomputable section

open scoped BigOperators

namespace Cert.Sage.Block

open Cert.KernelIdeal Cert.KernelIdeal.Gen Idealize.ShloMosaic Idealize.ShloMosaic.ValueIdx

variable (x1 : FVec Ideal S2048x1 .f32) (x0 : FVec Ideal S2048x128 .f32) (x3 : FVec Ideal S128x128 .f32)
  (x2 : FVec Ideal S2048x128 .f32) (x4 : FVec Ideal S128x128 .f32) (x5 : FVec Ideal S1x128 .f32)

/-! ## Two non-pointwise steps at an entry -/

/-- A 2048 × 128 by 128 × 128 product accumulated from zero, at (p, q): the sum over k of A(p, k) · B(k, q). -/
theorem matmul_apply (A : FVec Ideal S2048x128 .f32) (B : FVec Ideal S128x128 .f32) (p : Fin 2048) (q : Fin 128) :
    matmul dot_S2048x128_S128x128_S2048x128_1_0_0_1_n_n none A B (constant S2048x128 .f32 0x00000000#32) (ix2 p q)
      = ∑ k : Fin 128, A (ix2 p k) * B (ix2 k q) := by
  have e : dot_S2048x128_S128x128_S2048x128_1_0_0_1_n_n = DotDims.plain 2048 128 128 := rfl
  rw [e]
  exact PlainMatmul.matmul_plain_zero_apply none A B p q

/-- A row sum of a 2048 × 128 block, at row p: the sum over the row's 128 entries. -/
theorem rowSum_apply (v : FVec Ideal S2048x128 .f32) (hφ : FKind.Formats .f32)
    (hacc : (0x00000000#32 : BitVec 32) = FKind.add.neutral .f32 hφ) (p : Fin 2048) :
    multiReduction .add [1] S2048 v 0x00000000#32 reduces_S2048x128_S2048 hφ hacc (ix1 p) = ∑ k : Fin 128, v (ix2 p k) := by
  refine (Ideal.multiReduction_add_single v _ reduces_S2048x128_S2048 hφ hacc (ix1 p)).trans ?_
  refine Finset.sum_congr rfl fun k _ => congrArg v ?_
  funext a
  match a with
  | ⟨0, _⟩ => rfl
  | ⟨1, _⟩ => rfl

/-! ## The three stages -/

/-- The mean of the neighbours' features: the sums over max(count, 1), the count's column spread along the row. -/
def mean : FVec Ideal S2048x128 .f32 :=
  divf (shapeCast S2048x128 x0 shapeCasts_S2048x128_S2048x128)
    (broadcastTo S2048x128 (maximumf (shapeCast S2048x1 x1 shapeCasts_S2048x1_S2048x1)
      (broadcast S2048x1 (Scalar.ofBits .f32 0x3F800000#32))) broadcasts_S2048x1_S2048x128)

theorem mean_apply (p : Fin 2048) (k : Fin 128) :
    mean x1 x0 (ix2 p k) = Ideal.div (x0 (ix2 p k)) (max (x1 (ix2 p (0 : Fin 1))) one) := by
  unfold mean
  rw [shapeCast_self, shapeCast_self]
  exact congrArg (Ideal.div (x0 (ix2 p k))) (Cert.LibColumn.broadcastTo_a1_ab_apply _ _ p k)

/-- The linear part: mean · W_l + features · W_r, plus the bias row spread down the rows. -/
def lin : FVec Ideal S2048x128 .f32 :=
  addf (addf (matmul dot_S2048x128_S128x128_S2048x128_1_0_0_1_n_n none (mean x1 x0) x3 (constant S2048x128 .f32 0x00000000#32))
      (matmul dot_S2048x128_S128x128_S2048x128_1_0_0_1_n_n none (shapeCast S2048x128 x2 shapeCasts_S2048x128_S2048x128) x4
        (constant S2048x128 .f32 0x00000000#32)))
    (broadcastTo S2048x128 (shapeCast S1x128 x5 shapeCasts_S1x128_S1x128) broadcasts_S1x128_S2048x128)

theorem lin_apply (p : Fin 2048) (q : Fin 128) :
    lin x1 x0 x3 x2 x4 x5 (ix2 p q)
      = rowLin (fun k => x0 (ix2 p k)) (x1 (ix2 p (0 : Fin 1))) (fun k => x2 (ix2 p k)) (fun k j => x3 (ix2 k j))
          (fun k j => x4 (ix2 k j)) (fun j => x5 (ix2 (0 : Fin 1) j)) q := by
  unfold lin rowLin
  rw [shapeCast_self, shapeCast_self]
  show (matmul dot_S2048x128_S128x128_S2048x128_1_0_0_1_n_n none (mean x1 x0) x3 (constant S2048x128 .f32 0x00000000#32) (ix2 p q)
      + matmul dot_S2048x128_S128x128_S2048x128_1_0_0_1_n_n none x2 x4 (constant S2048x128 .f32 0x00000000#32) (ix2 p q))
      + broadcastTo S2048x128 x5 broadcasts_S1x128_S2048x128 (ix2 p q) = _
  rw [matmul_apply, matmul_apply, broadcastTo_1b_ab_apply]
  simp only [mean_apply]

/-- The normalised row: the linear part over max(√(row sum of its squares), ε), the floor's column spread along the row. -/
def out : FVec Ideal S2048x128 .f32 :=
  divf (lin x1 x0 x3 x2 x4 x5)
    (broadcastTo S2048x128
      (maximumf
        (sqrt (shapeCast S2048x1
          (multiReduction .add [1] S2048 (mulf (lin x1 x0 x3 x2 x4 x5) (lin x1 x0 x3 x2 x4 x5)) 0x00000000#32
            reduces_S2048x128_S2048 (.inl rfl) rfl) shapeCasts_S2048_S2048x1))
        (broadcast S2048x1 (Scalar.ofBits .f32 0x2B8CBCCC#32))) broadcasts_S2048x1_S2048x128)

theorem out_apply (p : Fin 2048) (q : Fin 128) :
    out x1 x0 x3 x2 x4 x5 (ix2 p q)
      = rowOut (fun k => x0 (ix2 p k)) (x1 (ix2 p (0 : Fin 1))) (fun k => x2 (ix2 p k)) (fun k j => x3 (ix2 k j))
          (fun k j => x4 (ix2 k j)) (fun j => x5 (ix2 (0 : Fin 1) j)) q := by
  have hsum : shapeCast S2048x1
        (multiReduction .add [1] S2048 (mulf (lin x1 x0 x3 x2 x4 x5) (lin x1 x0 x3 x2 x4 x5)) 0x00000000#32
          reduces_S2048x128_S2048 (.inl rfl) rfl) shapeCasts_S2048_S2048x1 (ix2 p (0 : Fin 1))
      = ∑ j' : Fin 128, lin x1 x0 x3 x2 x4 x5 (ix2 p j') * lin x1 x0 x3 x2 x4 x5 (ix2 p j') := by
    refine (Cert.LibColumn.shapeCast_a_a1_apply _ _ p 0).trans ?_
    exact rowSum_apply _ _ _ p
  unfold out rowOut
  show Ideal.div (lin x1 x0 x3 x2 x4 x5 (ix2 p q)) (broadcastTo S2048x128 _ broadcasts_S2048x1_S2048x128 (ix2 p q)) = _
  rw [Cert.LibColumn.broadcastTo_a1_ab_apply]
  show Ideal.div (lin x1 x0 x3 x2 x4 x5 (ix2 p q))
      (max (Ideal.sqrt (shapeCast S2048x1 _ shapeCasts_S2048_S2048x1 (ix2 p (0 : Fin 1)))) eps) = _
  rw [hsum]
  simp only [lin_apply]

/-! ## The printed payload -/

/-- The stored value of the body is the three stages composed. -/
theorem pay_eq : k0_pay1 (F := Ideal) x1 x0 x3 x2 x4 x5 = out x1 x0 x3 x2 x4 x5 := rfl

/-- The body's stored value at entry (p, q) is the specification's row function of row p of the blocks. -/
theorem pay_apply (p : Fin 2048) (q : Fin 128) :
    k0_pay1 (F := Ideal) x1 x0 x3 x2 x4 x5 (ix2 p q)
      = rowOut (fun k => x0 (ix2 p k)) (x1 (ix2 p (0 : Fin 1))) (fun k => x2 (ix2 p k)) (fun k j => x3 (ix2 k j))
          (fun k j => x4 (ix2 k j)) (fun j => x5 (ix2 (0 : Fin 1) j)) q := by
  rw [pay_eq]
  exact out_apply x1 x0 x3 x2 x4 x5 p q

/-- One grid point. If row p of the three node-indexed blocks is row R of the padded arrays, and the weight and bias
    blocks are the weight and bias arrays, the body's stored value at (p, q) is the padded layer at (R, q). -/
theorem point_apply (p : Fin 2048) (q : Fin 128) (R : Fin 100352)
    (aggP : FVec Ideal S100352x128 .f32) (cntP : FVec Ideal S100352x1 .f32) (xP : FVec Ideal S100352x128 .f32)
    (wl wr : FVec Ideal S128x128 .f32) (b2 : FVec Ideal S1x128 .f32)
    (h0 : ∀ k : Fin 128, x0 (ix2 p k) = aggP (ix2 R k))
    (h1 : x1 (ix2 p (0 : Fin 1)) = cntP (ix2 R (0 : Fin 1)))
    (h2 : ∀ k : Fin 128, x2 (ix2 p k) = xP (ix2 R k))
    (h3 : ∀ k j : Fin 128, x3 (ix2 k j) = wl (ix2 k j))
    (h4 : ∀ k j : Fin 128, x4 (ix2 k j) = wr (ix2 k j))
    (h5 : ∀ j : Fin 128, x5 (ix2 (0 : Fin 1) j) = b2 (ix2 (0 : Fin 1) j)) :
    k0_pay1 (F := Ideal) x1 x0 x3 x2 x4 x5 (ix2 p q) = layerPadded aggP cntP xP wl wr b2 (ix2 R q) := by
  rw [pay_apply]
  simp only [h0, h1, h2, h3, h4, h5]
  rfl

end Cert.Sage.Block

end
-- ==== Proof.KernelArray.lean ====
/-
  From the 49 blocks to the whole padded result.

  The kernel runs on a grid of 49 points; point t reads rows 2048·t … 2048·t + 2047 of the padded neighbour sums,
  counts and features, the whole weight matrices and the bias row, and writes back rows 2048·t … 2048·t + 2047 of the
  result. What it writes is that block of ONE function of the padded arrays — the padded layer — because the body's
  value at row p of the block depends on row p of the blocks only, and row p of block t is row 2048·t + p of the
  array. The 49 blocks cover the 100352 rows, so after the run the result array is the padded layer of the arrays
  the region found.
-/
import proofs.«106013_j38010460569664_2_alg».proof.Proof.Gen.KernelIdeal.Frame
import proofs.«106013_j38010460569664_2_alg».proof.Proof.BlockValue
import Idealize.ShloMosaic.Lib.Pipeline.Value

set_option maxRecDepth 16384

noncomputable section

namespace Cert.Sage.Kernel

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the grid: the four node-indexed windows are at block row t, column block 0; the
    weights and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A block read is the array read at the block's rows

Row p of block t of a node-indexed window is row 2048·t + p of its array; the weights' and the bias's one block is the
whole array. Stated over an arbitrary array, so that nothing about the arrays' contents is looked at. -/

theorem point_lt (t : Fin cfg0.N) (p : Fin 2048) : t.val * 2048 + p.val < 100352 := by
  have ht : t.val < 49 := lt_of_lt_of_eq t.isLt N_0
  have := p.isLt
  omega

theorem read0 (t : Fin cfg0.N) (A : S100352x128.Idx → EReal) (p : Fin 2048) (k : Fin 128) :
    ((cfg0.win 0).blk t).view.read (Elt Ideal) A (ix2 p k) = A (ix2 (⟨t.val * 2048 + p.val, point_lt t p⟩ : Fin 100352) k) := by
  obtain ⟨e00, e01, -⟩ := index_facts t
  show A (((cfg0.win 0).blk t).view.emb (ix2 p k)) = _
  refine congrArg A (funext fun a => Fin.ext ?_)
  match a with
  | ⟨0, _⟩ => show win0_0.index t (0 : Fin 2) * 2048 + 1 * p.val = t.val * 2048 + p.val; rw [e00]; omega
  | ⟨1, _⟩ => show win0_0.index t (1 : Fin 2) * 128 + 1 * k.val = k.val; rw [e01]; omega

theorem read1 (t : Fin cfg0.N) (A : S100352x1.Idx → EReal) (p : Fin 2048) :
    ((cfg0.win 1).blk t).view.read (Elt Ideal) A (ix2 p (0 : Fin 1))
      = A (ix2 (⟨t.val * 2048 + p.val, point_lt t p⟩ : Fin 100352) (0 : Fin 1)) := by
  obtain ⟨-, -, e10, e11, -⟩ := index_facts t
  show A (((cfg0.win 1).blk t).view.emb (ix2 p (0 : Fin 1))) = _
  refine congrArg A (funext fun a => Fin.ext ?_)
  match a with
  | ⟨0, _⟩ => show win0_1.index t (0 : Fin 2) * 2048 + 1 * p.val = t.val * 2048 + p.val; rw [e10]; omega
  | ⟨1, _⟩ => show win0_1.index t (1 : Fin 2) * 1 + 1 * 0 = 0; rw [e11]

theorem read2 (t : Fin cfg0.N) (A : S100352x128.Idx → EReal) (p : Fin 2048) (k : Fin 128) :
    ((cfg0.win 2).blk t).view.read (Elt Ideal) A (ix2 p k) = A (ix2 (⟨t.val * 2048 + p.val, point_lt t p⟩ : Fin 100352) k) := by
  obtain ⟨-, -, -, -, e20, e21, -⟩ := index_facts t
  show A (((cfg0.win 2).blk t).view.emb (ix2 p k)) = _
  refine congrArg A (funext fun a => Fin.ext ?_)
  match a with
  | ⟨0, _⟩ => show win0_2.index t (0 : Fin 2) * 2048 + 1 * p.val = t.val * 2048 + p.val; rw [e20]; omega
  | ⟨1, _⟩ => show win0_2.index t (1 : Fin 2) * 128 + 1 * k.val = k.val; rw [e21]; omega

theorem read3 (t : Fin cfg0.N) (A : S128x128.Idx → EReal) (k j : Fin 128) :
    ((cfg0.win 3).blk t).view.read (Elt Ideal) A (ix2 k j) = A (ix2 k j) := by
  obtain ⟨-, -, -, -, -, -, e30, e31, -⟩ := index_facts t
  show A (((cfg0.win 3).blk t).view.emb (ix2 k j)) = _
  refine congrArg A (funext fun a => Fin.ext ?_)
  match a with
  | ⟨0, _⟩ => show win0_3.index t (0 : Fin 2) * 128 + 1 * k.val = k.val; rw [e30]; omega
  | ⟨1, _⟩ => show win0_3.index t (1 : Fin 2) * 128 + 1 * j.val = j.val; rw [e31]; omega

theorem read4 (t : Fin cfg0.N) (A : S128x128.Idx → EReal) (k j : Fin 128) :
    ((cfg0.win 4).blk t).view.read (Elt Ideal) A (ix2 k j) = A (ix2 k j) := by
  obtain ⟨-, -, -, -, -, -, -, -, e40, e41, -⟩ := index_facts t
  show A (((cfg0.win 4).blk t).view.emb (ix2 k j)) = _
  refine congrArg A (funext fun a => Fin.ext ?_)
  match a with
  | ⟨0, _⟩ => show win0_4.index t (0 : Fin 2) * 128 + 1 * k.val = k.val; rw [e40]; omega
  | ⟨1, _⟩ => show win0_4.index t (1 : Fin 2) * 128 + 1 * j.val = j.val; rw [e41]; omega

theorem read5 (t : Fin cfg0.N) (A : S1x128.Idx → EReal) (j : Fin 128) :
    ((cfg0.win 5).blk t).view.read (Elt Ideal) A (ix2 (0 : Fin 1) j) = A (ix2 (0 : Fin 1) j) := by
  obtain ⟨-, -, -, -, -, -, -, -, -, -, e50, e51, -⟩ := index_facts t
  show A (((cfg0.win 5).blk t).view.emb (ix2 (0 : Fin 1) j)) = _
  refine congrArg A (funext fun a => Fin.ext ?_)
  match a with
  | ⟨0, _⟩ => show win0_5.index t (0 : Fin 2) * 1 + 1 * 0 = 0; rw [e50]
  | ⟨1, _⟩ => show win0_5.index t (1 : Fin 2) * 128 + 1 * j.val = j.val; rw [e51]; omega

/-- The output's block t, read at (p, q), is the array at (2048·t + p, q). -/
theorem read6 (t : Fin cfg0.N) (A : S100352x128.Idx → EReal) (p : Fin 2048) (q : Fin 128) :
    ((cfg0.win 6).blk t).view.read (Elt Ideal) A (ix2 p q) = A (ix2 (⟨t.val * 2048 + p.val, point_lt t p⟩ : Fin 100352) q) := by
  obtain ⟨-, -, -, -, -, -, -, -, -, -, -, -, e60, e61⟩ := index_facts t
  show A (((cfg0.win 6).blk t).view.emb (ix2 p q)) = _
  refine congrArg A (funext fun a => Fin.ext ?_)
  match a with
  | ⟨0, _⟩ => show win0_6.index t (0 : Fin 2) * 2048 + 1 * p.val = t.val * 2048 + p.val; rw [e60]; omega
  | ⟨1, _⟩ => show win0_6.index t (1 : Fin 2) * 128 + 1 * q.val = q.val; rw [e61]; omega

/-! ## What a point writes back -/

/-- The padded layer of the arrays the region finds. -/
abbrev result (c : Dev nD) : S100352x128.Idx → EReal :=
  layerPadded (V m c main_v20) (V m c main_v21) (V m c main_v22) (V m c main_arg2) (V m c main_arg3) (V m c main_v19)

/-- What point t writes back is block t of the padded layer. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero_offsets]
  simp only [View.ld_unit_zero (S := S2048x128) zero_offsets, View.ld_unit_zero (S := S2048x1) zero_offsets,
    View.ld_unit_zero (S := S128x128) zero_offsets, View.ld_unit_zero (S := S1x128) zero_offsets]
  funext y
  obtain ⟨p, q, rfl⟩ : ∃ (p : Fin 2048) (q : Fin 128), y = ix2 p q :=
    ⟨⟨(y 0).val, (y 0).isLt⟩, ⟨(y 1).val, (y 1).isLt⟩, funext fun a => by match a with | ⟨0, _⟩ => rfl | ⟨1, _⟩ => rfl⟩
  refine Eq.trans ?_ (read6 t (result m c) p q).symm
  show k0_pay1 (F := Ideal) (iblk m c 1 t) (iblk m c 0 t) (iblk m c 3 t) (iblk m c 2 t) (iblk m c 4 t) (iblk m c 5 t) (ix2 p q) = _
  exact Block.point_apply (iblk m c 1 t) (iblk m c 0 t) (iblk m c 3 t) (iblk m c 2 t) (iblk m c 4 t) (iblk m c 5 t) p q
    ⟨t.val * 2048 + p.val, point_lt t p⟩ (V m c main_v20) (V m c main_v21) (V m c main_v22) (V m c main_arg2) (V m c main_arg3)
    (V m c main_v19)
    (fun k => read0 t (V m c main_v20) p k) (read1 t (V m c main_v21) p) (fun k => read2 t (V m c main_v22) p k)
    (fun k j => read3 t (V m c main_arg2) k j) (fun k j => read4 t (V m c main_arg3) k j) (fun j => read5 t (V m c main_v19) j)

/-- An index of the result array is in point t's block iff each coordinate is in the block's range on its axis. -/
theorem mem_blk (t : Fin cfg0.N) (i : S100352x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v23).slice (win0_6.rect t)).set ↔ _
  rw [View.set_slice_whole, Rect.mem_set_unit]
  exact Iff.rfl

/-- Every row is in the block of the point numbered by the row's quotient by 2048. -/
theorem cover (i : S100352x128.Idx) :
    ∃ t : Fin cfg0.N, (cfg0.win 6).flush t = true ∧ i ∈ ((cfg0.win 6).blk t).view.set := by
  have hi0 : (i 0).val < 100352 := (i 0).isLt
  have hi1 : (i 1).val < 128 := (i 1).isLt
  have hN : cfg0.N = 49 := N_0
  refine ⟨⟨(i 0).val / 2048, by rw [hN]; omega⟩, flush0_6 _, ?_⟩
  obtain ⟨-, -, -, -, -, -, -, -, -, -, -, -, e60, e61⟩ := index_facts ⟨(i 0).val / 2048, by rw [hN]; omega⟩
  rw [mem_blk]
  intro a
  match a with
  | ⟨0, _⟩ =>
    show win0_6.index _ (0 : Fin 2) * 2048 ≤ (i 0).val ∧ (i 0).val < win0_6.index _ (0 : Fin 2) * 2048 + 2048
    rw [e60]
    show (i 0).val / 2048 * 2048 ≤ (i 0).val ∧ (i 0).val < (i 0).val / 2048 * 2048 + 2048
    omega
  | ⟨1, _⟩ =>
    show win0_6.index _ (1 : Fin 2) * 128 ≤ (i 1).val ∧ (i 1).val < win0_6.index _ (1 : Fin 2) * 128 + 128
    rw [e61]
    omega

/-- The result array after the run is the padded layer of the arrays the region found. -/
theorem final (c : Dev nD) : (dats m 0 c).arrAt 6 cfg0.N = result m c :=
  (dats m 0 c).arrAt_eq_of_cover 6 (result m c) (fun t _ => flushed_eq m c t) cover

end Cert.Sage.Kernel

end
-- ==== Proof.LibPadRows.lean ====
/- Rows appended below a matrix.

   A host pad of an [n, c] matrix to [m, c] with nothing in front, nothing between the entries, nothing to the
   right and some extra rows at the bottom keeps every original entry where it was: read at (R, k) with R a row
   of the original (R = r as numbers, r < n), it is the original at (r, k), whatever the padding value. -/
import Idealize.ShloMosaic.Lib.Pipeline.Value
import Idealize.ShloMosaic.Lib.ValueIdx

namespace Cert.LibPadRows

open Idealize.ShloMosaic Idealize.ShloMosaic.ValueIdx

variable {α : Type}

/-- An [n, c] matrix padded below to [m, c] reads, at a row of the original, the original. -/
theorem pad_rows_apply {n m c hi : ℕ} {u : Shape} (x : (⟨2, ![n, c]⟩ : Shape).Idx → α) (v : u.Idx → α)
    (h : (⟨2, ![n, c]⟩ : Shape).Pads ![0, 0] ![hi, 0] ![0, 0] ⟨2, ![m, c]⟩) (hu : 0 < u.numel)
    (R : Fin m) (k : Fin c) (r : Fin n) (hr : R.val = r.val) :
    pad ⟨2, ![m, c]⟩ ![0, 0] ![hi, 0] ![0, 0] x v h hu (ix2 R k) = x (ix2 r k) := by
  unfold pad
  have hin : ∀ a : Fin 2, (![0, 0] : Fin 2 → ℕ) a ≤ ((ix2 R k) (a.cast h.1)).val
      ∧ (((ix2 R k) (a.cast h.1)).val - (![0, 0] : Fin 2 → ℕ) a) % ((![0, 0] : Fin 2 → ℕ) a + 1) = 0
      ∧ (((ix2 R k) (a.cast h.1)).val - (![0, 0] : Fin 2 → ℕ) a) / ((![0, 0] : Fin 2 → ℕ) a + 1)
          < (⟨2, ![n, c]⟩ : Shape).size a := by
    intro a
    match a with
    | ⟨0, _⟩ =>
      show 0 ≤ R.val ∧ (R.val - 0) % (0 + 1) = 0 ∧ (R.val - 0) / (0 + 1) < n
      have := r.isLt
      omega
    | ⟨1, _⟩ =>
      show 0 ≤ k.val ∧ (k.val - 0) % (0 + 1) = 0 ∧ (k.val - 0) / (0 + 1) < c
      have := k.isLt
      omega
  rw [dif_pos hin]
  refine congrArg x (funext fun a => Fin.ext ?_)
  match a with
  | ⟨0, _⟩ =>
    show (R.val - 0) / (0 + 1) = r.val
    omega
  | ⟨1, _⟩ =>
    show (k.val - 0) / (0 + 1) = k.val
    omega

end Cert.LibPadRows
-- ==== Proof.HostSide.lean ====
/-
  The arrays the kernel is launched on, read at an entry.

  Before the launch the host pads the neighbour sums, the neighbour counts (re-laid as a column) and the node
  features with 352 rows below (to 100352 = 49 · 2048 rows), and re-lays the bias as a one-row matrix. At a row of
  the original arrays the padded arrays hold the original entries, whatever the padding value; the bias row holds
  the bias. The neighbour sums and counts themselves (a gather and two accumulating scatters over the edge list)
  are named as two functions of the features and the edge list and are not opened here.
-/
import proofs.«106013_j38010460569664_2_alg».proof.Proof.Gen.KernelIdeal.Frame
import proofs.«106013_j38010460569664_2_alg».proof.Proof.LibPadRows
import proofs.«106013_j38010460569664_2_alg».proof.Proof.LibColumn
import Idealize.ShloMosaic.Lib.StableHlo.Run
import Idealize.ShloMosaic.Lib.ValueLayout
import Idealize.ShloMosaic.PureOps.Ideal

noncomputable section

namespace Cert.Sage.Host

open Cert.KernelIdeal Cert.KernelIdeal.Gen Idealize.ShloMosaic Idealize.ShloMosaic.TcCoe Idealize.ShloMosaic.ValueIdx
open Idealize.SL.Sem Idealize.ShloMosaic.StableHlo

/-! ## The neighbour sums and counts

Both programs begin with the same host lines on the node features x and the edge list e (row 0 the sources, row 1 the
targets): a source below zero is shifted up by the number of nodes; the features of every edge's source are gathered;
they are added into a zero array at the edge's target (the sums), and ones are added into a zero vector at the edge's
target (the counts). The two results are named here and never opened: every later step is stated over them. -/

/-- The summed features of each node's incoming neighbours. -/
def sums (x : (⟨S100000x128, .f32⟩ : BufTy).Contents (Elt Ideal)) (e : (⟨S2x640000, .i32⟩ : BufTy).Contents (Elt Ideal)) :
    S100000x128.Idx → EReal :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0
      (shapeCast _ (extractStridedSlice S1x640000 ![1, 0] e slices_S2x640000_S1x640000_1_0) shapeCasts_S1x640000_S640000))
    (Host.gather gather_S100000x128_S640000x1_S640000x128_1_0_n_n_0_1_1128 x
      (broadcastInDim S640000x1 ![0] bcast_S640000_S640000x1_0
        (select
          (cmpi .slt (shapeCast _ (extractStridedSlice S1x640000 ![0, 0] e slices_S2x640000_S1x640000_0_0) shapeCasts_S1x640000_S640000)
            (broadcastInDim S640000 ![] bcast_S_S640000 (constantI S_ 32 0#32)))
          (addi (shapeCast _ (extractStridedSlice S1x640000 ![0, 0] e slices_S2x640000_S1x640000_0_0) shapeCasts_S1x640000_S640000)
            (broadcastInDim S640000 ![] bcast_S_S640000 (constantI S_ 32 100000#32)))
          (shapeCast _ (extractStridedSlice S1x640000 ![0, 0] e slices_S2x640000_S1x640000_0_0) shapeCasts_S1x640000_S640000))))

/-- The number of each node's incoming neighbours. -/
def counts (e : (⟨S2x640000, .i32⟩ : BufTy).Contents (Elt Ideal)) : S100000.Idx → EReal :=
  Host.scatterAdd (F := Ideal) scatter_S100000_S640000x1_S640000_n_0_0_1
    (broadcastInDim S100000 ![] bcast_S_S100000 (constant (F := Ideal) S_ .f32 0x00000000#32))
    (broadcastInDim S640000x1 ![0] bcast_S640000_S640000x1_0
      (shapeCast _ (extractStridedSlice S1x640000 ![1, 0] e slices_S2x640000_S1x640000_1_0) shapeCasts_S1x640000_S640000))
    (broadcastInDim S640000 ![] bcast_S_S640000 (constant (F := Ideal) S_ .f32 0x3F800000#32))

variable (m : (ℓ : Loc nD τ sig) → Buf (Elt Ideal) ℓ)

/-! ## The four arrays the region finds, as host terms -/

/-- The padded features: the argument with 352 rows below. -/
theorem features_eq (c : Dev nD) :
    (V m c main_v22 : S100352x128.Idx → EReal)
      = pad S100352x128 ![0, 0] ![352, 0] ![0, 0] (m ((c : Thread nD τ).loc main_arg0))
          (sitofp (F := Ideal) .f32 (constantI S_ 32 0#32)) pads_S100000x128_S100352x128_03520_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

set_option maxHeartbeats 2000000 in
/-- The padded neighbour sums: the sums with 352 rows below. -/
theorem sums_eq (c : Dev nD) :
    (V m c main_v20 : S100352x128.Idx → EReal)
      = pad S100352x128 ![0, 0] ![352, 0] ![0, 0]
          (sums (m ((c : Thread nD τ).loc main_arg0)) (m ((c : Thread nD τ).loc main_arg1)))
          (sitofp (F := Ideal) .f32 (constantI S_ 32 0#32)) pads_S100000x128_S100352x128_03520_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- The padded neighbour counts: the counts as a column, with 352 rows below. -/
theorem counts_eq (c : Dev nD) :
    (V m c main_v21 : S100352x1.Idx → EReal)
      = pad S100352x1 ![0, 0] ![352, 0] ![0, 0]
          (shapeCast S100000x1 (counts (m ((c : Thread nD τ).loc main_arg1))) shapeCasts_S100000_S100000x1)
          (sitofp (F := Ideal) .f32 (constantI S_ 32 0#32)) pads_S100000x1_S100352x1_03520_000 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- The bias as a one-row matrix. -/
theorem bias_eq (c : Dev nD) :
    (V m c main_v19 : S1x128.Idx → EReal) = shapeCast S1x128 (m ((c : Thread nD τ).loc main_arg4)) shapeCasts_S128_S1x128 := by
  dsimp only [V, V0]
  simp only [hostOps0, hostOps0_1, hostOps0_2, hostOps0_3, hostOps0_4, hostOps0_5, List.flatten_cons, List.flatten_nil,
    List.append_nil, List.cons_append, List.nil_append]
  after_results
  rfl

/-! ## At an entry -/

theorem features_apply (c : Dev nD) (R : Fin 100352) (r : Fin 100000) (hr : R.val = r.val) (k : Fin 128) :
    V m c main_v22 (ix2 R k) = m ((c : Thread nD τ).loc main_arg0) (ix2 r k) :=
  (congrFun (features_eq m c) (ix2 R k)).trans (Cert.LibPadRows.pad_rows_apply _ _ _ _ R k r hr)

theorem sums_apply (c : Dev nD) (R : Fin 100352) (r : Fin 100000) (hr : R.val = r.val) (k : Fin 128) :
    V m c main_v20 (ix2 R k) = sums (m ((c : Thread nD τ).loc main_arg0)) (m ((c : Thread nD τ).loc main_arg1)) (ix2 r k) :=
  (congrFun (sums_eq m c) (ix2 R k)).trans (Cert.LibPadRows.pad_rows_apply _ _ _ _ R k r hr)

theorem counts_apply (c : Dev nD) (R : Fin 100352) (r : Fin 100000) (hr : R.val = r.val) :
    V m c main_v21 (ix2 R (0 : Fin 1)) = counts (m ((c : Thread nD τ).loc main_arg1)) (ix1 r) :=
  (congrFun (counts_eq m c) (ix2 R (0 : Fin 1))).trans
    ((Cert.LibPadRows.pad_rows_apply _ _ _ _ R (0 : Fin 1) r hr).trans (Cert.LibColumn.shapeCast_a_a1_apply _ _ r 0))

theorem bias_apply (c : Dev nD) (j : Fin 128) :
    V m c main_v19 (ix2 (0 : Fin 1) j) = m ((c : Thread nD τ).loc main_arg4) (ix1 j) :=
  (congrFun (bias_eq m c) (ix2 (0 : Fin 1) j)).trans (shapeCast_a_1a_apply _ _ 0 j)

end Cert.Sage.Host

end
-- ==== Proof.KernelResult.lean ====
/-
  The kernel program's result.

  After the region the host keeps the first 100000 rows of the 100352-row result. Row r < 100000 of the padded
  layer depends on row r of the padded neighbour sums, counts and features only, and there the padded arrays hold
  the original entries; so the kept rows are the layer of the unpadded arrays: of the neighbour sums and counts, the
  node features, the two weight matrices and the bias as launched.
-/
import proofs.«106013_j38010460569664_2_alg».proof.Proof.KernelArray
import proofs.«106013_j38010460569664_2_alg».proof.Proof.HostSide

set_option maxRecDepth 16384

noncomputable section

namespace Cert.Sage.Kernel

open Cert.KernelIdeal Cert.KernelIdeal.Gen Idealize.ShloMosaic Idealize.ShloMosaic.TcCoe Idealize.ShloMosaic.ValueIdx
open Idealize.SL.Sem Idealize.ShloMosaic.StableHlo Cert.Sage.Host

variable (m : (ℓ : Loc nD τ sig) → Buf (Elt Ideal) ℓ)

/-- The layer of the arrays as launched. -/
abbrev answer (c : Dev nD) : S100000x128.Idx → EReal :=
  layer (sums (m ((c : Thread nD τ).loc main_arg0)) (m ((c : Thread nD τ).loc main_arg1)))
    (counts (m ((c : Thread nD τ).loc main_arg1))) (m ((c : Thread nD τ).loc main_arg0)) (m ((c : Thread nD τ).loc main_arg2))
    (m ((c : Thread nD τ).loc main_arg3)) (m ((c : Thread nD τ).loc main_arg4))

/-- The host line after the region cuts the first 100000 rows out of the region's result array. -/
theorem tail_eq (c : Dev nD) :
    (Pipeline.afterTail₀ cfgs (dats m) 0 (V0 m) [hostOps1] c main_v24 : S100000x128.Idx → EReal)
      = extractStridedSlice S100000x128 ![0, 0] (result m c) slices_S100352x128_S100000x128_0_0 := by
  unfold Pipeline.afterTail₀
  show StableHlo.after hostOps1 _ (Proc.devRef .tc main_v24) = _
  after_results
  refine congrArg (fun X : S100352x128.Idx → EReal => extractStridedSlice S100000x128 ![0, 0] X slices_S100352x128_S100000x128_0_0) ?_
  exact (Pipeline.withArrays_arr spec0 launch0.win.arr_inj c _ _ 6).trans (final m c)

/-- The kept rows are the layer of the arrays as launched. -/
theorem result_eq (c : Dev nD) :
    (Pipeline.afterTail₀ cfgs (dats m) 0 (V0 m) [hostOps1] c main_v24 : S100000x128.Idx → EReal) = answer m c := by
  rw [tail_eq]
  funext i
  obtain ⟨r, j, rfl⟩ : ∃ (r : Fin 100000) (j : Fin 128), i = ix2 r j := ⟨i 0, i 1, eq_ix2 i⟩
  have hR : r.val < 100352 := by have := r.isLt; omega
  refine (slice2_axis0_apply 0 (result m c) slices_S100352x128_S100000x128_0_0 r j ⟨r.val, hR⟩ (Nat.zero_add _).symm).trans ?_
  have a0 : (fun k : Fin 128 => V m c main_v20 (ix2 (⟨r.val, hR⟩ : Fin 100352) k))
      = fun k => sums (m ((c : Thread nD τ).loc main_arg0)) (m ((c : Thread nD τ).loc main_arg1)) (ix2 r k) :=
    funext fun k => sums_apply m c ⟨r.val, hR⟩ r rfl k
  have a1 : V m c main_v21 (ix2 (⟨r.val, hR⟩ : Fin 100352) (0 : Fin 1)) = counts (m ((c : Thread nD τ).loc main_arg1)) (ix1 r) :=
    counts_apply m c ⟨r.val, hR⟩ r rfl
  have a2 : (fun k : Fin 128 => V m c main_v22 (ix2 (⟨r.val, hR⟩ : Fin 100352) k))
      = fun k => m ((c : Thread nD τ).loc main_arg0) (ix2 r k) :=
    funext fun k => features_apply m c ⟨r.val, hR⟩ r rfl k
  have a3 : (fun k j : Fin 128 => V m c main_arg2 (ix2 k j)) = fun k j => m ((c : Thread nD τ).loc main_arg2) (ix2 k j) := by
    rw [V_main_arg2]
  have a4 : (fun k j : Fin 128 => V m c main_arg3 (ix2 k j)) = fun k j => m ((c : Thread nD τ).loc main_arg3) (ix2 k j) := by
    rw [V_main_arg3]
  have a5 : (fun j : Fin 128 => V m c main_v19 (ix2 (0 : Fin 1) j)) = fun j => m ((c : Thread nD τ).loc main_arg4) (ix1 j) :=
    funext fun j => bias_apply m c j
  show rowOut (fun k : Fin 128 => V m c main_v20 (ix2 (⟨r.val, hR⟩ : Fin 100352) k))
      (V m c main_v21 (ix2 (⟨r.val, hR⟩ : Fin 100352) (0 : Fin 1)))
      (fun k : Fin 128 => V m c main_v22 (ix2 (⟨r.val, hR⟩ : Fin 100352) k))
      (fun k j : Fin 128 => V m c main_arg2 (ix2 k j)) (fun k j : Fin 128 => V m c main_arg3 (ix2 k j))
      (fun j : Fin 128 => V m c main_v19 (ix2 (0 : Fin 1) j)) j = _
  rw [a0, a1, a2, a3, a4, a5]
  rfl

/-- The kernel program's run with its result named: every weakly fair execution terminates with the result buffer at the
    layer of the arrays as launched, and the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v24) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.Sage.Kernel

end
-- ==== Proof.ReferenceSide.lean ====
/-
  The reference program, row by row.

  After the neighbour sums agg and the neighbour counts cnt (a gather and two accumulating scatters, shared with
  the kernel's program and never opened here), the reference divides agg by max(cnt, 1) broadcast along the
  features, multiplies by W_l, adds x · W_r and the bias broadcast along the nodes, and divides each row by
  max(√(Σ row²), ε). Read at node r and feature j, this is the row function of the specification applied to row r
  of agg, entry r of cnt and row r of x.
-/
import proofs.«106013_j38010460569664_2_alg».proof.Proof.Gen.ReferenceIdeal.Read
import proofs.«106013_j38010460569664_2_alg».proof.Proof.ArraySpec
import Idealize.ShloMosaic.PureOps.Ideal.Laws

noncomputable section

open scoped BigOperators

namespace Cert.Sage.Reference

open Cert.ReferenceIdeal Cert.ReferenceIdeal.Read Idealize.ShloMosaic Idealize.ShloMosaic.ValueIdx

variable (x0 : (⟨S100000x128, .f32⟩ : BufTy).Contents (Elt Ideal)) (x1 : (⟨S2x640000, .i32⟩ : BufTy).Contents (Elt Ideal))
  (x2 x3 : (⟨S128x128, .f32⟩ : BufTy).Contents (Elt Ideal)) (x4 : (⟨S128, .f32⟩ : BufTy).Contents (Elt Ideal))

/-! ## Where each layout operation of the reference reads its operand, by coordinates -/

theorem lidx23 (r : Fin 100000) (j k : Fin 128) : lidx_main_v23 (ix2 r j) k = ix2 r k :=
  funext fun a => by match a with | ⟨0, _⟩ => rfl | ⟨1, _⟩ => rfl
theorem ridx23 (r : Fin 100000) (j k : Fin 128) : ridx_main_v23 (ix2 r j) k = ix2 k j :=
  funext fun a => by match a with | ⟨0, _⟩ => rfl | ⟨1, _⟩ => rfl
theorem lidx24 (r : Fin 100000) (j k : Fin 128) : lidx_main_v24 (ix2 r j) k = ix2 r k :=
  funext fun a => by match a with | ⟨0, _⟩ => rfl | ⟨1, _⟩ => rfl
theorem ridx24 (r : Fin 100000) (j k : Fin 128) : ridx_main_v24 (ix2 r j) k = ix2 k j :=
  funext fun a => by match a with | ⟨0, _⟩ => rfl | ⟨1, _⟩ => rfl
theorem idx21 (r : Fin 100000) (k : Fin 128) : idx_main_v21 (ix2 r k) = ix2 r (0 : Fin 1) :=
  funext fun a => by match a with | ⟨0, _⟩ => rfl | ⟨1, _⟩ => rfl
theorem idx20 (r : Fin 100000) (u : Fin 1) : idx_main_v20 (ix2 r u) = ix1 r :=
  funext fun a => by match a with | ⟨0, _⟩ => rfl
theorem idx27 (r : Fin 100000) (j : Fin 128) : idx_main_v27 (ix2 r j) = ix2 (0 : Fin 1) j :=
  funext fun a => by match a with | ⟨0, _⟩ => rfl | ⟨1, _⟩ => rfl
theorem idx26 (u : Fin 1) (j : Fin 128) : idx_main_v26 (ix2 u j) = ix1 j :=
  funext fun a => by match a with | ⟨0, _⟩ => rfl
theorem idx35 (r : Fin 100000) (j : Fin 128) : idx_main_v35 (ix2 r j) = ix2 r (0 : Fin 1) :=
  funext fun a => by match a with | ⟨0, _⟩ => rfl | ⟨1, _⟩ => rfl
theorem idx31 (r : Fin 100000) (u : Fin 1) : idx_main_v31 (ix2 r u) = ix1 r :=
  funext fun a => by match a with | ⟨0, _⟩ => rfl
theorem idx30 (r : Fin 100000) (k : Fin 128) : idx_main_v30 (ix1 r) k = ix2 r k :=
  funext fun a => by match a with | ⟨0, _⟩ => rfl | ⟨1, _⟩ => rfl

/-! ## The rows -/

/-- The reference's sum before normalising, at node r and feature j, is the specification's linear part of row r. -/
theorem lin_apply (r : Fin 100000) (j : Fin 128) :
    val_main_v28 (F := Ideal) x0 x1 x2 x3 x4 (ix2 r j)
      = rowLin (fun k => val_main_v13 (F := Ideal) x0 x1 (ix2 r k)) (val_main_v17 (F := Ideal) x1 (ix1 r))
          (fun k => x0 (ix2 r k)) (fun k j => x2 (ix2 k j)) (fun k j => x3 (ix2 k j)) (fun j => x4 (ix1 j)) j := by
  have e1 : ∀ k : Fin 128, val_main_v22 (F := Ideal) x0 x1 (lidx_main_v23 (ix2 r j) k) * x2 (ridx_main_v23 (ix2 r j) k)
      = Ideal.div (val_main_v13 (F := Ideal) x0 x1 (ix2 r k)) (max (val_main_v17 (F := Ideal) x1 (ix1 r)) one) * x2 (ix2 k j) := by
    intro k
    rw [lidx23, ridx23, val_main_v22_apply, val_main_v21_apply, idx21, val_main_v20_apply, idx20, val_main_v19_apply,
      val_main_v18_apply, val_main_cst_3_apply]
    rfl
  have e2 : ∀ k : Fin 128, x0 (lidx_main_v24 (ix2 r j) k) * x3 (ridx_main_v24 (ix2 r j) k) = x0 (ix2 r k) * x3 (ix2 k j) := by
    intro k
    rw [lidx24, ridx24]
  have e3 : x4 (idx_main_v26 (idx_main_v27 (ix2 r j))) = x4 (ix1 j) := by
    rw [idx27, idx26]
  rw [val_main_v28_apply, val_main_v25_apply, val_main_v23_apply, val_main_v24_apply, val_main_v27_apply, val_main_v26_apply,
    Finset.sum_congr rfl (fun k _ => e1 k), Finset.sum_congr rfl (fun k _ => e2 k), e3]
  rfl

/-- The reference's result at node r and feature j is the specification's row r at j. -/
theorem out_apply (r : Fin 100000) (j : Fin 128) :
    val_main_v36 (F := Ideal) x0 x1 x2 x3 x4 (ix2 r j)
      = rowOut (fun k => val_main_v13 (F := Ideal) x0 x1 (ix2 r k)) (val_main_v17 (F := Ideal) x1 (ix1 r))
          (fun k => x0 (ix2 r k)) (fun k j => x2 (ix2 k j)) (fun k j => x3 (ix2 k j)) (fun j => x4 (ix1 j)) j := by
  have e1 : ∀ k : Fin 128, val_main_v29 (F := Ideal) x0 x1 x2 x3 x4 (idx_main_v30 (idx_main_v31 (idx_main_v35 (ix2 r j))) k)
      = rowLin (fun k => val_main_v13 (F := Ideal) x0 x1 (ix2 r k)) (val_main_v17 (F := Ideal) x1 (ix1 r))
            (fun k => x0 (ix2 r k)) (fun k j => x2 (ix2 k j)) (fun k j => x3 (ix2 k j)) (fun j => x4 (ix1 j)) k
        * rowLin (fun k => val_main_v13 (F := Ideal) x0 x1 (ix2 r k)) (val_main_v17 (F := Ideal) x1 (ix1 r))
            (fun k => x0 (ix2 r k)) (fun k j => x2 (ix2 k j)) (fun k j => x3 (ix2 k j)) (fun j => x4 (ix1 j)) k := by
    intro k
    rw [idx35, idx31, idx30, val_main_v29_apply, lin_apply]
    rfl
  rw [val_main_v36_apply, val_main_v35_apply, val_main_v34_apply, val_main_v32_apply, val_main_v31_apply,
    val_main_v30_apply, val_main_v33_apply, Finset.sum_congr rfl (fun k _ => e1 k), lin_apply, val_main_cst_4_apply,
    val_main_cst_5_apply]
  unfold rowOut
  simp only [Ideal.hostDivf_def, Ideal.maximumf_def, Ideal.hostUnary_sqrt_def, Ideal.ofBits_def, Ideal.ofBits_zero_f32,
    zero_add]

/-- The reference's result array is the layer of the neighbour sums and counts (its own two scatter stages), the
    features, the weights and the bias. -/
theorem result_eq :
    val_main_v36 (F := Ideal) x0 x1 x2 x3 x4
      = layer (val_main_v13 (F := Ideal) x0 x1) (val_main_v17 (F := Ideal) x1) x0 x2 x3 x4 := by
  funext i
  obtain ⟨r, j, rfl⟩ : ∃ (r : Fin 100000) (j : Fin 128), i = ix2 r j := ⟨i 0, i 1, eq_ix2 i⟩
  exact out_apply x0 x1 x2 x3 x4 r j

end Cert.Sage.Reference

end
-- ==== Proof.lean ====
/-
  A graph layer with mean aggregation, a linear map and row normalisation: the kernel program against its reference,
  as extended reals.

  Both programs first form, on the host and by the same lines, the neighbour sums agg (the features of every edge's
  source added at the edge's target) and the neighbour counts cnt. Then, for every node r and output feature j,

      mean_k = agg[r, k] / max(cnt[r], 1)
      lin_j  = (Σ_k mean_k · W_l[k, j] + Σ_k x[r, k] · W_r[k, j]) + b_j
      out_j  = lin_j / max(√(Σ_j' lin_j'²), ε).

  The reference does this on whole arrays. The kernel program pads agg, cnt and x to 100352 = 49 · 2048 rows, runs
  the same arithmetic on 49 blocks of 2048 rows, and keeps the first 100000 rows. A row of the result depends on the
  same row of agg, cnt and x only, in both programs and with the sums taken in the same grouping; the padding rows
  are computed and discarded. So the two results agree entry by entry at every extended-real input — the equality
  uses no algebraic law beyond reading each operation at an entry, and the precondition is not needed for it.

  The modules: Spec (one row), ArraySpec (all rows), BlockValue (the kernel body on a block), KernelArray (blocks to
  the padded result), HostSide (the padded arrays at an entry), KernelResult (the kept rows; the kernel program's
  run), ReferenceSide (the reference, row by row). Here: the two programs' neighbour sums and counts are one pair of
  functions, and the five claims.
-/
import proofs.«106013_j38010460569664_2_alg».proof.Defs
import proofs.«106013_j38010460569664_2_alg».proof.Proof.Gen.Kernel
import proofs.«106013_j38010460569664_2_alg».proof.Proof.Gen.Kernel.Skeleton
import proofs.«106013_j38010460569664_2_alg».proof.Proof.Gen.Kernel.Launch
import proofs.«106013_j38010460569664_2_alg».proof.Proof.Gen.Kernel.Points
import proofs.«106013_j38010460569664_2_alg».proof.Proof.Gen.Kernel.Frame
import proofs.«106013_j38010460569664_2_alg».proof.Proof.Gen.KernelIdeal
import proofs.«106013_j38010460569664_2_alg».proof.Proof.Gen.KernelIdeal.Skeleton
import proofs.«106013_j38010460569664_2_alg».proof.Proof.Gen.KernelIdeal.Launch
import proofs.«106013_j38010460569664_2_alg».proof.Proof.Gen.KernelIdeal.Points
import proofs.«106013_j38010460569664_2_alg».proof.Proof.Gen.KernelIdeal.Frame
import proofs.«106013_j38010460569664_2_alg».proof.Proof.Gen.ReferenceIdeal
import proofs.«106013_j38010460569664_2_alg».proof.Proof.Gen.ReferenceIdeal.Run
import proofs.«106013_j38010460569664_2_alg».proof.Proof.Gen.ReferenceIdeal.Read
import proofs.«106013_j38010460569664_2_alg».proof.Proof.Gen.Pre_finite_inputs
import proofs.«106013_j38010460569664_2_alg».proof.Proof.KernelResult
import proofs.«106013_j38010460569664_2_alg».proof.Proof.ReferenceSide
import Idealize.ShloMosaic.Adequacy
import Idealize.ShloMosaic.Init

noncomputable section

namespace Cert.Proof

open Idealize.ShloMosaic Idealize.SL.Sem

/-! ## The shared host lines -/

/-- The reference's neighbour sums are the kernel program's: the same gather and accumulating scatter of the same
    features and edge list. -/
theorem sums_ref (x : (⟨Cert.ReferenceIdeal.S100000x128, .f32⟩ : BufTy).Contents (Elt Ideal))
    (e : (⟨Cert.ReferenceIdeal.S2x640000, .i32⟩ : BufTy).Contents (Elt Ideal)) :
    Cert.ReferenceIdeal.Read.val_main_v13 (F := Ideal) x e = Cert.Sage.Host.sums x e := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst Cert.Sage.Host.sums
  rfl

/-- The reference's neighbour counts are the kernel program's. -/
theorem counts_ref (e : (⟨Cert.ReferenceIdeal.S2x640000, .i32⟩ : BufTy).Contents (Elt Ideal)) :
    Cert.ReferenceIdeal.Read.val_main_v17 (F := Ideal) e = Cert.Sage.Host.counts e := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v3 Cert.ReferenceIdeal.Read.val_main_v2
    Cert.ReferenceIdeal.Read.val_main_cst_1 Cert.ReferenceIdeal.Read.val_main_cst_2 Cert.Sage.Host.counts
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer of the neighbour sums and counts, the features, the weights and the bias. -/
theorem algebraic : Cert.algebraic_KernelIdeal_ReferenceIdeal := by
  intro m ρ m' ρ' _ hagree
  refine ⟨fun c => Cert.Sage.Kernel.answer m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.Sage.Reference.result_eq, sums_ref, counts_ref,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
